-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S16384x256 : Shape := ⟨2, ![16384, 256]⟩
abbrev S1048576 : Shape := ⟨1, ![1048576]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1048576 : S_.BroadcastsInDim S1048576 (![] : Fin 0 → Fin S1048576.rank)
  reducesTo_S1048576_S_d0 : S1048576.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : FVec F S16384x256 .f32) (main_arg2 : IVec S1048576 32) (main_arg3 : IVec S1048576 32) (main_arg4 : FVec F S1048576 .f32) (main_arg5 : FVec F S256x256 .f32) (main_arg6 : FVec F S256x256 .f32) (main_arg7 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S1048576 .f32 := Host.absf main_arg4
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_v13 main_v16
-- ==== Kernel.lean ====
abbrev S100000x256 : Shape := ⟨2, ![100000, 256]⟩
abbrev S16384x256 : Shape := ⟨2, ![16384, 256]⟩
abbrev S1048576 : Shape := ⟨1, ![1048576]⟩
abbrev S256x256 : Shape := ⟨2, ![256, 256]⟩
abbrev S256 : Shape := ⟨1, ![256]⟩
abbrev S_ : Shape := ⟨0, ![]⟩
abbrev S1048576x1 : Shape := ⟨2, ![1048576, 1]⟩
abbrev S1048576x256 : Shape := ⟨2, ![1048576, 256]⟩
abbrev S1x256 : Shape := ⟨2, ![1, 256]⟩
abbrev S2048x256 : Shape := ⟨2, ![2048, 256]⟩

abbrev nBuf : Space → Nat
  | .hbm => 26
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S16384x256, .f32⟩
  | .hbm, ⟨2, _⟩ => ⟨S1048576, .i32⟩
  | .hbm, ⟨3, _⟩ => ⟨S1048576, .i32⟩
  | .hbm, ⟨4, _⟩ => ⟨S1048576, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x256, .f32⟩
  | .hbm, ⟨17, _⟩ => ⟨S1048576x1, .f32⟩
  | .hbm, ⟨18, _⟩ => ⟨S1048576x256, .f32⟩
  | .hbm, ⟨19, _⟩ => ⟨S1048576x256, .f32⟩
  | .hbm, ⟨20, _⟩ => ⟨S_, .f32⟩
  | .hbm, ⟨21, _⟩ => ⟨S16384x256, .f32⟩
  | .hbm, ⟨22, _⟩ => ⟨S1048576x1, .i32⟩
  | .hbm, ⟨23, _⟩ => ⟨S16384x256, .f32⟩
  | .hbm, ⟨24, _⟩ => ⟨S1x256, .f32⟩
  | .hbm, ⟨25, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x256_0_1 : S1048576x1.BroadcastsInDim S1048576x256 (![0, 1] : Fin 2 → Fin S1048576x256.rank)
  bcast_S_S16384x256 : S_.BroadcastsInDim S16384x256 (![] : Fin 0 → Fin S16384x256.rank)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  gather_S100000x256_S1048576x1_S1048576x256_1_0_n_n_0_1_1256_wf : GatherDims.WF S100000x256 S1048576x1 S1048576x256 [1] [0] [] [0] [] 1 ![1, 256]
  scatter_S16384x256_S1048576x1_S1048576x256_1_0_0_1_wf : ScatterDims.WF S16384x256 S1048576x1 S1048576x256 [1] [0] [0] 1
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S16384x256.size a
  hwx0_5 : ∀ i : grid0.Coords, EltTy.bits .f32 = 32 ∨ (Rect.block (s := S16384x256) S2048x256.size (cc0_transform_5 i) (hinb0_5 i)).WholeWords (EltTy.packing .f32)

variable [Facts₀]

def gather_S100000x256_S1048576x1_S1048576x256_1_0_n_n_0_1_1256 : GatherDims S100000x256 S1048576x1 S1048576x256 where
  offsetDims := [1]
  collapsedSliceDims := [0]
  operandBatchingDims := []
  startIndicesBatchingDims := []
  startIndexMap := [0]
  indexVectorDim := 1
  sliceSizes := ![1, 256]
  wf := gather_S100000x256_S1048576x1_S1048576x256_1_0_n_n_0_1_1256_wf
def scatter_S16384x256_S1048576x1_S1048576x256_1_0_0_1 : ScatterDims S16384x256 S1048576x1 S1048576x256 where
  updateWindowDims := [1]
  insertedWindowDims := [0]
  scatterDimsToOperandDims := [0]
  indexVectorDim := 1
  wf := scatter_S16384x256_S1048576x1_S1048576x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v12) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S16384x256 : Shape := ⟨2, ![16384, 256]⟩
abbrev S1048576 : Shape := ⟨1, ![1048576]⟩
abbrev S256x256 : Shape := ⟨2, ![256, 256]⟩
abbrev S256 : Shape := ⟨1, ![256]⟩
abbrev S1048576x1 : Shape := ⟨2, ![1048576, 1]⟩
abbrev S_ : Shape := ⟨0, ![]⟩
abbrev S1048576x256 : Shape := ⟨2, ![1048576, 256]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S16384x256, .f32⟩
  | .hbm, ⟨2, _⟩ => ⟨S1048576, .i32⟩
  | .hbm, ⟨3, _⟩ => ⟨S1048576, .i32⟩
  | .hbm, ⟨4, _⟩ => ⟨S1048576, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S100000x256, .f32⟩
  | .hbm, ⟨9, _⟩ => ⟨S1048576x1, .f32⟩
  | .hbm, ⟨10, _⟩ => ⟨S_, .i32⟩
  | .hbm, ⟨11, _⟩ => ⟨S1048576, .i32⟩
  | .hbm, ⟨12, _⟩ => ⟨S1048576, .i1⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S1048576x1, .i32⟩
  | .hbm, ⟨18, _⟩ => ⟨S1048576x256, .f32⟩
  | .hbm, ⟨19, _⟩ => ⟨S1048576x256, .f32⟩
  | .hbm, ⟨20, _⟩ => ⟨S1048576x256, .f32⟩
  | .hbm, ⟨21, _⟩ => ⟨S_, .f32⟩
  | .hbm, ⟨22, _⟩ => ⟨S16384x256, .f32⟩
  | .hbm, ⟨23, _⟩ => ⟨S1048576x1, .i32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S1x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x256_0_1 : S1048576x1.BroadcastsInDim S1048576x256 (![0, 1] : Fin 2 → Fin S1048576x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S100000x256_S256x256_S100000x256_1_0_0_1_n_n_wf : DotDims.WF S100000x256 S256x256 S100000x256 [1] [0] [0] [1] [] []
  gather_S100000x256_S1048576x1_S1048576x256_1_0_n_n_0_1_1256_wf : GatherDims.WF S100000x256 S1048576x1 S1048576x256 [1] [0] [] [0] [] 1 ![1, 256]
  scatter_S16384x256_S1048576x1_S1048576x256_1_0_0_1_wf : ScatterDims.WF S16384x256 S1048576x1 S1048576x256 [1] [0] [0] 1
  dot_S16384x256_S256x256_S16384x256_1_0_0_1_n_n_wf : DotDims.WF S16384x256 S256x256 S16384x256 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S1048576x1_S1048576x256_1_0_n_n_0_1_1256 : GatherDims S100000x256 S1048576x1 S1048576x256 where
  offsetDims := [1]
  collapsedSliceDims := [0]
  operandBatchingDims := []
  startIndicesBatchingDims := []
  startIndexMap := [0]
  indexVectorDim := 1
  sliceSizes := ![1, 256]
  wf := gather_S100000x256_S1048576x1_S1048576x256_1_0_n_n_0_1_1256_wf
def scatter_S16384x256_S1048576x1_S1048576x256_1_0_0_1 : ScatterDims S16384x256 S1048576x1 S1048576x256 where
  updateWindowDims := [1]
  insertedWindowDims := [0]
  scatterDimsToOperandDims := [0]
  indexVectorDim := 1
  wf := scatter_S16384x256_S1048576x1_S1048576x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.Finite.lean ====
/-
  From the precondition "every float input is finite" to "every entry is a real number".

  The precondition is the conjunction, over the six float arguments, of `all (|x| < +∞)`: a reduction by `and` over the
  entrywise comparison of the absolute value with the pattern of +∞. On the extended reals `|x| = max x (-x)`, and
  `max x (-x) < ⊤` excludes both infinities, so the entry is the coercion of a real. Only three of the six conjuncts
  are read here: the table of embeddings, the edge values and the first weight matrix, the arrays whose entries meet in
  the products that the two programs associate differently.
-/
import proofs.«104869_j91345364451436_2_alg».proof.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Finite

open Idealize.ShloMosaic Idealize.ShloMosaic.ValueIdx

/-- An extended real whose absolute value compares below the pattern of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

instance : Subsingleton (⟨0, ![]⟩ : Shape).Idx := ⟨fun a b => funext fun d => d.elim0⟩

/-- `all (|x| < +∞)` over an array of any shape gives a real at every index. -/
theorem entries_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1)
    (i : s.Idx) : ∃ r : ℝ, x i = (r : EReal) :=
  real_of_abs_lt_inf (x i) (Host.reduce_andi_all _ _ hr hu ix0 e i)

open Cert.Pre_finite_inputs in
/-- The three arrays whose finiteness the proof uses: the embedding table, the edge values, the first weight matrix. -/
theorem reals_of_pre [Cert.Pre_finite_inputs.Facts] (x0 : FVec Ideal S100000x256 .f32) (x1 : FVec Ideal S16384x256 .f32)
    (x2 x3 : IVec S1048576 32) (x4 : FVec Ideal S1048576 .f32) (x5 x6 : FVec Ideal S256x256 .f32) (x7 : FVec Ideal S256 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x4 i = (r : EReal)) ∧ (∀ i, ∃ r : ℝ, x5 i = (r : EReal)) := by
  have h0 := congrFun h ix0
  dsimp only [Cert.Pre_finite_inputs.fn, Cert.Pre_finite_inputs.fn_part1, andi] at h0
  obtain ⟨h01, _⟩ := IntOp.andi_eq_one.mp h0
  obtain ⟨h02, _⟩ := IntOp.andi_eq_one.mp h01
  obtain ⟨h03, h5⟩ := IntOp.andi_eq_one.mp h02
  obtain ⟨h04, h4⟩ := IntOp.andi_eq_one.mp h03
  obtain ⟨h00, _⟩ := IntOp.andi_eq_one.mp h04
  exact ⟨fun i => entries_real x0 _ _ _ h00 i, fun i => entries_real x4 _ _ _ h4 i, fun i => entries_real x5 _ _ _ h5 i⟩

end Cert.Finite

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.DenseTile.lean ====
/-
  One tile of the dense stage, entry by entry.

  The body takes a tile `a` of 2048 aggregated rows, the matching tile `u` of 2048 user rows, the two 256×256 weight
  matrices `wa`, `wu` and the bias row `b`, and stores  max (a · wa + u · wu + b, 0).  At the exact values a change of
  float format is the identity and a product into the zero accumulator is the plain sum over the contracted
  coordinate, so entry (p, q) of the stored tile is

      max ((∑ k, a (p, k) · wa (k, q) + ∑ k, u (p, k) · wu (k, q)) + b (0, q)) 0.
-/
import proofs.«104869_j91345364451436_2_alg».proof.Proof.Gen.KernelIdeal.Skeleton
import proofs.«104869_j91345364451436_2_alg».proof.Proof.LibMatmulNN
import Idealize.ShloMosaic.Lib.Pipeline.Value
import Idealize.ShloMosaic.Lib.ValueIdx

noncomputable section

open scoped BigOperators

namespace Cert.KernelIdeal.Dense

open Cert.KernelIdeal Cert.KernelIdeal.Gen Idealize.ShloMosaic Idealize.ShloMosaic.ValueIdx

variable [Cert.KernelIdeal.Facts]

/-- A 2048×256 by 256×256 product into the zero accumulator, at (p, q). -/
theorem product_apply (A : FVec Ideal S2048x256 .bf16) (B : FVec Ideal S256x256 .bf16) (p : Fin 2048) (q : Fin 256) :
    matmul dot_S2048x256_S256x256_S2048x256_1_0_0_1_n_n none A B (constant S2048x256 .f32 0x00000000#32) (ix2 p q)
      = ∑ k : Fin 256, A (ix2 p k) * B (ix2 k q) :=
  MatmulNN.matmul_zero_apply (M := 2048) (K := 256) (N := 256) none A B p q

/-- The bias row laid along every row of the tile, at (p, q): the row's entry q. -/
theorem biasRows_apply (b : FVec Ideal S1x256 .f32) (p : Fin 2048) (q : Fin 256) :
    broadcastTo S2048x256 (shapeCast S1x256 b shapeCasts_S1x256_S1x256) broadcasts_S1x256_S2048x256 (ix2 p q)
      = b (ix2 (0 : Fin 1) q) := by
  rw [shapeCast_self]
  exact broadcastTo_apply b broadcasts_S1x256_S2048x256 (ix2 p q) (ix2 (0 : Fin 1) q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- Entry (p, q) of the stored tile. -/
theorem tile_apply (a : Vec Ideal S2048x256 .f32) (wa : Vec Ideal S256x256 .f32) (u : Vec Ideal S2048x256 .f32)
    (wu : Vec Ideal S256x256 .f32) (b : Vec Ideal S1x256 .f32) (p : Fin 2048) (q : Fin 256) :
    k0_pay1 (F := Ideal) a wa u wu b (ix2 p q)
      = max ((∑ k : Fin 256, a (ix2 p k) * wa (ix2 k q) + ∑ k : Fin 256, u (ix2 p k) * wu (ix2 k q)) + b (ix2 (0 : Fin 1) q))
          (Ideal.ofBits .f32 0x00000000#32) := by
  unfold k0_pay1
  rw [maximumf_apply, addf_apply, addf_apply, broadcast_apply, biasRows_apply, product_apply, product_apply,
    shapeCast_self]
  rfl

end Cert.KernelIdeal.Dense

end
-- ==== Proof.DenseRows.lean ====
/-
  The dense stage on whole arrays, and its tiles.

  On a 16384-row array P of aggregated rows and the 16384 user rows U the dense stage is, entry (u, j),

      max ((∑ k, P (u, k) · Wp (k, j) + ∑ k, U (u, k) · Wu (k, j)) + B (0, j)) 0.

  Row u of the result depends on row u of P and of U only, so the stage applied to rows 2048·T … 2048·T + 2047 of
  P and U is rows 2048·T … 2048·T + 2047 of the stage applied to the whole arrays: the grid's eight tiles are the
  eight row blocks of one whole-array function.
-/
import proofs.«104869_j91345364451436_2_alg».proof.Proof.DenseTile

noncomputable section

open scoped BigOperators

namespace Cert.KernelIdeal.Dense

open Cert.KernelIdeal Cert.KernelIdeal.Gen Idealize.ShloMosaic Idealize.ShloMosaic.ValueIdx

variable [Cert.KernelIdeal.Facts]

/-- Entry (u, j) of the dense stage on whole arrays. -/
def outAt (P U : S16384x256.Idx → EReal) (Wp Wu : S256x256.Idx → EReal) (B : S1x256.Idx → EReal)
    (u : Fin 16384) (j : Fin 256) : EReal :=
  max ((∑ k : Fin 256, P (ix2 u k) * Wp (ix2 k j) + ∑ k : Fin 256, U (ix2 u k) * Wu (ix2 k j)) + B (ix2 (0 : Fin 1) j))
    (Ideal.ofBits .f32 0x00000000#32)

/-- The dense stage on whole arrays. -/
def out (P U : S16384x256.Idx → EReal) (Wp Wu : S256x256.Idx → EReal) (B : S1x256.Idx → EReal) :
    S16384x256.Idx → EReal :=
  fun i => outAt P U Wp Wu B ⟨(i 0).val, idx2_lt0 i⟩ ⟨(i 1).val, idx2_lt1 i⟩

theorem out_ix2 (P U : S16384x256.Idx → EReal) (Wp Wu : S256x256.Idx → EReal) (B : S1x256.Idx → EReal)
    (u : Fin 16384) (j : Fin 256) : out P U Wp Wu B (ix2 u j) = outAt P U Wp Wu B u j := rfl

/-- Rows 2048·T … 2048·T + 2047 of a 16384-row array. -/
def rowsTile (A : S16384x256.Idx → EReal) (T : Nat) (hT : T < 8) : S2048x256.Idx → EReal :=
  fun x => A (ix2 (⟨2048 * T + (x 0).val, by have := idx2_lt0 x; omega⟩ : Fin 16384) (⟨(x 1).val, idx2_lt1 x⟩ : Fin 256))

/-- The body on tile T of P and U is tile T of the whole-array stage. -/
theorem tile_of_rows (P U : S16384x256.Idx → EReal) (Wp Wu : S256x256.Idx → EReal) (B : S1x256.Idx → EReal)
    (T : Nat) (hT : T < 8) :
    k0_pay1 (F := Ideal) (rowsTile P T hT) Wp (rowsTile U T hT) Wu B = rowsTile (out P U Wp Wu B) T hT := by
  funext x
  obtain ⟨p, q, rfl⟩ : ∃ (p : Fin 2048) (q : Fin 256), x = ix2 p q := ⟨x 0, x 1, eq_ix2 x⟩
  rw [tile_apply]
  rfl

end Cert.KernelIdeal.Dense

end
-- ==== Proof.KernelValue.lean ====
/-
  The kernel's result array as one function of the arrays the region finds.

  The grid has eight points; at point t the two row-tiled operands (the aggregated rows and the user rows) and the
  result are at rows 2048·t … 2048·t + 2047 of their arrays, and the two weight matrices and the bias row are whole.
  So what point t writes back is tile t of the dense stage applied to the whole arrays, the eight tiles cover the
  result array, and after the run it holds the dense stage of the whole arrays.
-/
import proofs.«104869_j91345364451436_2_alg».proof.Proof.Gen.KernelIdeal.Value
import proofs.«104869_j91345364451436_2_alg».proof.Proof.DenseRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Dense

variable (m : (ℓ : Loc nD τ sig) → Buf (Elt Ideal) ℓ) (ρ : Dev nD → PrngReg)

theorem hz : (![0, 0] : Fin 2 → Nat) = fun _ => 0 := funext fun a => by fin_cases a <;> rfl

theorem hN : cfg0.N = 8 := N_0

theorem lt8 (t : Fin cfg0.N) : t.val < 8 := lt_of_lt_of_eq t.isLt hN

/-- The printed index maps over the grid: the three row-tiled windows are at block (t, 0), the three whole ones at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at point t, read off an array -/

theorem read_rows0 (A : S16384x256.Idx → Elt Ideal .f32) (t : Fin cfg0.N) :
    ((cfg0.win 0).blk t).view.read (Elt Ideal) A = rowsTile A t.val (lt8 t) := by
  obtain ⟨e0, e1, -⟩ := idx_facts t
  funext x
  rw [View.read_apply]
  unfold rowsTile
  refine congrArg A (funext fun a => Fin.ext ?_)
  match a with
  | ⟨0, _⟩ => show win0_0.index t (0 : Fin 2) * 2048 + 1 * (x 0).val = 2048 * t.val + (x 0).val; rw [e0]; omega
  | ⟨1, _⟩ => show win0_0.index t (1 : Fin 2) * 256 + 1 * (x 1).val = (x 1).val; rw [e1]; omega

theorem read_rows1 (A : S16384x256.Idx → Elt Ideal .f32) (t : Fin cfg0.N) :
    ((cfg0.win 1).blk t).view.read (Elt Ideal) A = rowsTile A t.val (lt8 t) := by
  obtain ⟨-, -, e0, e1, -⟩ := idx_facts t
  funext x
  rw [View.read_apply]
  unfold rowsTile
  refine congrArg A (funext fun a => Fin.ext ?_)
  match a with
  | ⟨0, _⟩ => show win0_1.index t (0 : Fin 2) * 2048 + 1 * (x 0).val = 2048 * t.val + (x 0).val; rw [e0]; omega
  | ⟨1, _⟩ => show win0_1.index t (1 : Fin 2) * 256 + 1 * (x 1).val = (x 1).val; rw [e1]; omega

theorem read_rows5 (A : S16384x256.Idx → Elt Ideal .f32) (t : Fin cfg0.N) :
    ((cfg0.win 5).blk t).view.read (Elt Ideal) A = rowsTile A t.val (lt8 t) := by
  obtain ⟨-, -, -, -, -, -, -, -, -, -, e0, e1⟩ := idx_facts t
  funext x
  rw [View.read_apply]
  unfold rowsTile
  refine congrArg A (funext fun a => Fin.ext ?_)
  match a with
  | ⟨0, _⟩ => show win0_5.index t (0 : Fin 2) * 2048 + 1 * (x 0).val = 2048 * t.val + (x 0).val; rw [e0]; omega
  | ⟨1, _⟩ => show win0_5.index t (1 : Fin 2) * 256 + 1 * (x 1).val = (x 1).val; rw [e1]; omega

theorem read_whole2 (A : S256x256.Idx → Elt Ideal .f32) (t : Fin cfg0.N) :
    ((cfg0.win 2).blk t).view.read (Elt Ideal) A = A := by
  obtain ⟨-, -, -, -, e0, e1, -⟩ := idx_facts t
  funext x
  rw [View.read_apply]
  refine congrArg A (funext fun a => Fin.ext ?_)
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

theorem read_whole3 (A : S256x256.Idx → Elt Ideal .f32) (t : Fin cfg0.N) :
    ((cfg0.win 3).blk t).view.read (Elt Ideal) A = A := by
  obtain ⟨-, -, -, -, -, -, e0, e1, -⟩ := idx_facts t
  funext x
  rw [View.read_apply]
  refine congrArg A (funext fun a => Fin.ext ?_)
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

theorem read_whole4 (A : S1x256.Idx → Elt Ideal .f32) (t : Fin cfg0.N) :
    ((cfg0.win 4).blk t).view.read (Elt Ideal) A = A := by
  obtain ⟨-, -, -, -, -, -, -, -, e0, e1, -⟩ := idx_facts t
  funext x
  rw [View.read_apply]
  refine congrArg A (funext fun a => Fin.ext ?_)
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-! ## The input blocks the body is handed at point t -/

theorem iblk0 (c : Dev nD) (t : Fin cfg0.N) :
    (iblk m c 0 t : Vec Ideal S2048x256 .f32) = rowsTile (V m c main_v12) t.val (lt8 t) := by
  unfold iblk; exact read_rows0 (V m c main_v12) t

theorem iblk1 (c : Dev nD) (t : Fin cfg0.N) :
    (iblk m c 1 t : Vec Ideal S2048x256 .f32) = rowsTile (V m c main_arg1) t.val (lt8 t) := by
  unfold iblk; exact read_rows1 (V m c main_arg1) t

theorem iblk2 (c : Dev nD) (t : Fin cfg0.N) : (iblk m c 2 t : Vec Ideal S256x256 .f32) = V m c main_arg5 := by
  unfold iblk; exact read_whole2 (V m c main_arg5) t

theorem iblk3 (c : Dev nD) (t : Fin cfg0.N) : (iblk m c 3 t : Vec Ideal S256x256 .f32) = V m c main_arg6 := by
  unfold iblk; exact read_whole3 (V m c main_arg6) t

theorem iblk4 (c : Dev nD) (t : Fin cfg0.N) : (iblk m c 4 t : Vec Ideal S1x256 .f32) = V m c main_v13 := by
  unfold iblk; exact read_whole4 (V m c main_v13) t

/-! ## The result array -/

/-- The dense stage of the arrays as the region finds them. -/
def G (c : Dev nD) : S16384x256.Idx → Elt Ideal .f32 :=
  out (V m c main_v12) (V m c main_arg1) (V m c main_arg5) (V m c main_arg6) (V m c main_v13)

/-- What point t writes back is tile t of G. -/
theorem flushed_eq (c : Dev nD) (t : Fin cfg0.N) :
    (dats m 0 c).flushed 5 t = ((cfg0.win 5).blk t).view.read (Elt Ideal) (G m c) := by
  rw [Cert.KernelIdeal.Value.flushed5, read_rows5 (G m c) t]
  unfold out0_5
  rw [View.canon_unit_zero hz]
  simp only [View.ld_unit_zero (S := S2048x256) hz, View.ld_unit_zero (S := S256x256) hz,
    View.ld_unit_zero (S := S1x256) hz]
  rw [iblk0 m c t, iblk1 m c t, iblk2 m c t, iblk3 m c t, iblk4 m c t]
  funext j
  exact congrFun (tile_of_rows (V m c main_v12) (V m c main_arg1) (V m c main_arg5) (V m c main_arg6) (V m c main_v13) t.val (lt8 t)) j

/-- An index of the result array is in point t's block iff each coordinate is in the block's range on its axis. -/
theorem mem_blk5 (t : Fin cfg0.N) (i : S16384x256.Idx) :
    i ∈ ((cfg0.win 5).blk t).view.set ↔ ∀ a : Fin 2, win0_5.index t a * S2048x256.size a ≤ (i a).val
      ∧ (i a).val < win0_5.index t a * S2048x256.size a + S2048x256.size a := by
  show i ∈ ((View.whole main_v14).slice (win0_5.rect t)).set ↔ _
  rw [View.set_slice_whole, Rect.mem_set_unit]
  exact Iff.rfl

/-- Row r of the result array is in the block of point r / 2048. -/
theorem cover5 (i : S16384x256.Idx) :
    ∃ t : Fin cfg0.N, (cfg0.win 5).flush t = true ∧ i ∈ ((cfg0.win 5).blk t).view.set := by
  have hi0 : (i 0).val < 16384 := (i 0).isLt
  have hi1 : (i 1).val < 256 := (i 1).isLt
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 256 ≤ (i 1).val ∧ (i 1).val < win0_5.index t (1 : Fin 2) * 256 + 256
    rw [e1]; omega

/-- After the run the result array is G. -/
theorem final (c : Dev nD) : (dats m 0 c).arrAt 5 cfg0.N = G m c :=
  (dats m 0 c).arrAt_eq_of_cover 5 (G m c) (fun t _ => flushed_eq m c t) (cover5)

/-- The run, read: the result at G, the arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Whole

end
-- ==== Proof.LibScatterRead.lean ====
/-
  An accumulating scatter of rows, read at an index.

  The scatter takes an operand `x : [N, C]`, one signed index per update row (`idx : [E, 1]`) and updates
  `upd : [E, C]`; update row `e` is added, column by column, into operand row `idx e` when `0 ≤ idx e < N` and is
  dropped otherwise. With exact addition the result at `(n, c)` is
  `x(n, c) + ∑ {e | idx e = n} upd(e, c)`:
  each column is scattered independently of the others. Hence a scatter of several column groups packed side by
  side, read in one group, is the scatter of that group alone; and a scatter of a flattened `[E, H·3]` array whose
  column `3h + c` holds `m(e,h) * d(e,c)`, read back as `[N, H, 3]`, is `∑ {e | idx e = n} m(e,h) * d(e,c)`.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-- The dimension numbers of a row scatter: operand `[N, C]`, indices `[E, 1]` (one scalar index per update row, on
    the index-vector axis 1), updates `[E, C]`; the updates' axis 1 is the window axis, the operand's axis 0 is inserted
    and is the axis the index addresses. The well-formedness conditions `wf` are whatever proof the caller has. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-! ### Where update `(e, k)` lands: row `idx e` (read signed), column `k` -/

/-- On the row axis the window coordinate is zero (the axis is inserted) … -/
theorem rowScatter_window0 (e : Fin E) (k : Fin C) : (rowScatter N E C wf).window (ix2 e k) 0 = 0 := rfl
/-- … and on the column axis it is the update's column. -/
theorem rowScatter_window1 (e : Fin E) (k : Fin C) : (rowScatter N E C wf).window (ix2 e k) 1 = k.val := rfl
/-- The column axis is not addressed by the index: its start is zero. -/
theorem rowScatter_start1 (e : Fin E) (k : Fin C) (idx : IVec ⟨2, ![E, 1]⟩ w) :
    (rowScatter N E C wf).start (ix2 e k) idx 1 = 0 := rfl
/-- The index of update row `e` is read at `(e, 0)` of the index array. -/
theorem rowScatter_siIdx (e : Fin E) (k : Fin C) (c : Fin 1) :
    (rowScatter N E C wf).siIdx (ix2 e k) ⟨c.val, by have := c.isLt; simpa using this⟩ = ix2 e (0 : Fin 1) := by
  funext b
  match b with
  | ⟨0, _⟩ => rfl
  | ⟨1, _⟩ => exact Fin.ext (by have := c.isLt; simp [ScatterDims.siIdx])
/-- The start on the row axis is that index, read as a signed integer. -/
theorem rowScatter_start0 (e : Fin E) (k : Fin C) (idx : IVec ⟨2, ![E, 1]⟩ w) :
    (rowScatter N E C wf).start (ix2 e k) idx 0 = (idx (ix2 e (0 : Fin 1))).toInt := by
  unfold ScatterDims.start
  rw [dif_pos (by simp)]
  exact congrArg (fun q => (idx q).toInt) (rowScatter_siIdx wf e k ⟨0, by decide⟩)

/-- Update `(e, k)` lands on operand element `(n, c)` exactly when the index of row `e` is `n` and `k = c`. -/
theorem rowScatter_resultIdx?_eq_some_iff (e : Fin E) (k : Fin C) (idx : IVec ⟨2, ![E, 1]⟩ w) (n : Fin N) (c : Fin C) :
    (rowScatter N E C wf).resultIdx? (ix2 e k) idx = some (ix2 n c)
      ↔ (idx (ix2 e (0 : Fin 1))).toInt = (n.val : Int) ∧ k = c := by
  have hs0 := rowScatter_start0 wf e k idx
  have hs1 := rowScatter_start1 wf e k idx
  have hw0 := rowScatter_window0 wf e k
  have hw1 := rowScatter_window1 wf e k
  unfold ScatterDims.resultIdx?
  split
  · next h =>
    rw [Option.some.injEq]
    constructor
    · intro hf
      have h0 : ((rowScatter N E C wf).start (ix2 e k) idx 0 + ((rowScatter N E C wf).window (ix2 e k) 0 : Nat)).toNat = n.val :=
        congrArg (fun f => (f 0).val) hf
      have h1 : ((rowScatter N E C wf).start (ix2 e k) idx 1 + ((rowScatter N E C wf).window (ix2 e k) 1 : Nat)).toNat = c.val :=
        congrArg (fun f => (f 1).val) hf
      have hh0 : 0 ≤ (rowScatter N E C wf).start (ix2 e k) idx 0 + ((rowScatter N E C wf).window (ix2 e k) 0 : Nat) := (h 0).1
      rw [hs0, hw0] at h0 hh0
      rw [hs1, hw1] at h1
      refine ⟨by omega, Fin.ext (by omega)⟩
    · rintro ⟨ht, hc⟩
      funext a
      match a with
      | ⟨0, _⟩ =>
        refine Fin.ext ?_
        show ((rowScatter N E C wf).start (ix2 e k) idx 0 + ((rowScatter N E C wf).window (ix2 e k) 0 : Nat)).toNat = n.val
        rw [hs0, hw0, ht]; omega
      | ⟨1, _⟩ =>
        refine Fin.ext ?_
        show ((rowScatter N E C wf).start (ix2 e k) idx 1 + ((rowScatter N E C wf).window (ix2 e k) 1 : Nat)).toNat = c.val
        rw [hs1, hw1, hc]; omega
  · next h =>
    constructor
    · intro hf; exact absurd hf (by simp)
    · rintro ⟨ht, hc⟩
      refine absurd (fun a => ?_) h
      match a with
      | ⟨0, _⟩ =>
        show 0 ≤ (rowScatter N E C wf).start (ix2 e k) idx 0 + ((rowScatter N E C wf).window (ix2 e k) 0 : Nat)
          ∧ (rowScatter N E C wf).start (ix2 e k) idx 0 + ((rowScatter N E C wf).window (ix2 e k) 0 : Nat) < (N : Int)
        rw [hs0, hw0, ht]; have := n.isLt; omega
      | ⟨1, _⟩ =>
        show 0 ≤ (rowScatter N E C wf).start (ix2 e k) idx 1 + ((rowScatter N E C wf).window (ix2 e k) 1 : Nat)
          ∧ (rowScatter N E C wf).start (ix2 e k) idx 1 + ((rowScatter N E C wf).window (ix2 e k) 1 : Nat) < (C : Int)
        rw [hs1, hw1]; have := k.isLt; omega

/-! ### The scatter read at an index -/

/-- The accumulating scatter of rows read at `(n, c)`: the operand there plus the sum, over the update rows `e` whose
    index (read signed) is `n`, of the update at `(e, c)`. Rows whose index is negative or `≥ N` match no `n` and are
    dropped. -/
theorem hostScatterAdd_rowScatter_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : Int)), upd (ix2 e c) := by
  unfold Ideal.hostScatterAdd
  refine congrArg (x (ix2 n c) + ·) ?_
  rw [Finset.sum_filter, sum_idx2, Finset.sum_filter]
  refine Finset.sum_congr rfl fun e _ => ?_
  by_cases ht : (idx (ix2 e (0 : Fin 1))).toInt = (n.val : Int)
  · rw [if_pos ht]
    rw [Finset.sum_eq_single c]
    · rw [if_pos ((rowScatter_resultIdx?_eq_some_iff wf e c idx n c).2 ⟨ht, rfl⟩)]
    · intro k _ hk
      rw [if_neg fun h => hk ((rowScatter_resultIdx?_eq_some_iff wf e k idx n c).1 h).2]
    · intro h; exact absurd (Finset.mem_univ c) h
  · rw [if_neg ht]
    refine Finset.sum_eq_zero fun k _ => ?_
    rw [if_neg fun h => ht ((rowScatter_resultIdx?_eq_some_iff wf e k idx n c).1 h).1]

/-- The same for the host's scatter as a program states it (`Host.scatterAdd` at the exact values). -/
theorem scatterAdd_rowScatter_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : Int)), upd (ix2 e c) :=
  hostScatterAdd_rowScatter_apply wf x idx upd n c

/-! ### Columns are scattered independently -/

/-- Two row scatters by the same indices, of possibly different widths, agree at `(n, c)` and `(n, c')` when their operands
    agree there and their updates agree in those two columns on every row. -/
theorem scatterAdd_rowScatter_congr_col {C' : Nat} {φ : FTy}
    (wf' : ScatterDims.WF ⟨2, ![N, C']⟩ ⟨2, ![E, 1]⟩ ⟨2, ![E, C']⟩ [1] [0] [0] 1)
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ) (n : Fin N) (c : Fin C) (c' : Fin C')
    (hx : x (ix2 n c) = x' (ix2 n c')) (hu : ∀ e : Fin E, upd (ix2 e c) = upd' (ix2 e c')) :
    Host.scatterAdd (rowScatter N E C wf) x idx upd (ix2 n c)
      = Host.scatterAdd (rowScatter N E C' wf') x' idx upd' (ix2 n c') := by
  rw [scatterAdd_rowScatter_apply, scatterAdd_rowScatter_apply, hx]
  exact congrArg (x' (ix2 n c') + ·) (Finset.sum_congr rfl fun e _ => hu e)

/-- A block of `W` columns at column offset `off`, cut out of a row scatter of width `C`, read at `(n, c)`: the scatter's
    value in column `off + c`. -/
theorem slice_scatterAdd_rowScatter_apply {W off : Nat} {φ : FTy}
    (hs : (⟨2, ![N, C]⟩ : Shape).Slices ![0, off] ⟨2, ![N, W]⟩)
    (x : FVec Ideal ⟨2, ![N, C]⟩ φ) (idx : IVec ⟨2, ![E, 1]⟩ w) (upd : FVec Ideal ⟨2, ![E, C]⟩ φ)
    (n : Fin N) (c : Fin W) (hc : off + c.val < C) :
    extractStridedSlice ⟨2, ![N, W]⟩ ![0, off] (Host.scatterAdd (rowScatter N E C wf) x idx upd) hs (ix2 n c)
      = x (ix2 n ⟨off + c.val, hc⟩)
        + ∑ e ∈ Finset.univ.filter (fun e : Fin E => (idx (ix2 e (0 : Fin 1))).toInt = (n.val : Int)),
            upd (ix2 e ⟨off + c.val, hc⟩) := by
  rw [← scatterAdd_rowScatter_apply wf x idx upd n ⟨off + c.val, hc⟩]
  unfold extractStridedSlice
  refine congrArg _ (funext fun a => ?_)
  match a with
  | ⟨0, _⟩ => exact Fin.ext (Nat.zero_add _)
  | ⟨1, _⟩ => rfl

/-- So the block of a PACKED scatter is the scatter of the block alone: if the narrow operand and updates are the packed
    ones' columns `off … off + W`, the narrow scatter at `(n, c)` is the packed scatter's block at `(n, c)`. -/
theorem slice_scatterAdd_rowScatter_eq {W off : Nat} {φ : FTy}
    (wfW : ScatterDims.WF ⟨2, ![N, W]⟩ ⟨2, ![E, 1]⟩ ⟨2, ![E, W]⟩ [1] [0] [0] 1)
    (hs : (⟨2, ![N, C]⟩ : Shape).Slices ![0, off] ⟨2, ![N, W]⟩)
    (x : FVec Ideal ⟨2, ![N, C]⟩ φ) (xW : FVec Ideal ⟨2, ![N, W]⟩ φ) (idx : IVec ⟨2, ![E, 1]⟩ w)
    (upd : FVec Ideal ⟨2, ![E, C]⟩ φ) (updW : FVec Ideal ⟨2, ![E, W]⟩ φ) (n : Fin N) (c : Fin W) (hc : off + c.val < C)
    (hx : xW (ix2 n c) = x (ix2 n ⟨off + c.val, hc⟩))
    (hu : ∀ e : Fin E, updW (ix2 e c) = upd (ix2 e ⟨off + c.val, hc⟩)) :
    extractStridedSlice ⟨2, ![N, W]⟩ ![0, off] (Host.scatterAdd (rowScatter N E C wf) x idx upd) hs (ix2 n c)
      = Host.scatterAdd (rowScatter N E W wfW) xW idx updW (ix2 n c) := by
  rw [slice_scatterAdd_rowScatter_apply wf hs x idx upd n c hc, scatterAdd_rowScatter_apply, hx]
  exact congrArg (x (ix2 n ⟨off + c.val, hc⟩) + ·) (Finset.sum_congr rfl fun e _ => (hu e).symm)

/-! ### A flattened `[E, 64, 3]` array scattered as `[E, 192]` and read back as `[N, 64, 3]` -/

/-- Flatten `mv : [E, 64, 3]` to `[E, 192]` (column `3h + c` holds `mv(e, h, c)`), scatter its rows into `x : [N, 192]`, and read the
    result as `[N, 64, 3]`: at `(n, h, c)` it is `x(n, 3h + c) + ∑ {e | idx e = n} mv(e, h, c)`. -/
theorem shapeCast_scatterAdd_shapeCast_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (idx : IVec ⟨2, ![E, 1]⟩ w) (mv : FVec Ideal ⟨3, ![E, 64, 3]⟩ φ)
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = x (ix2 n ⟨3 * h.val + c.val, by have := h.isLt; have := c.isLt; omega⟩)
        + ∑ e ∈ Finset.univ.filter (fun e : Fin E => (idx (ix2 e (0 : Fin 1))).toInt = (n.val : Int)), mv (ix3 e h c) := by
  have hq : 3 * h.val + c.val < 192 := by have := h.isLt; have := c.isLt; omega
  rw [shapeCast_apply _ h2 (ix3 n h c) (ix2 n ⟨3 * h.val + c.val, hq⟩) (by
    rw [Shape.rowMajor_val_two, Shape.rowMajor_val_three]
    show n.val * 192 + (3 * h.val + c.val) = (n.val * 64 + h.val) * 3 + c.val
    omega)]
  rw [scatterAdd_rowScatter_apply]
  refine congrArg (x (ix2 n ⟨3 * h.val + c.val, hq⟩) + ·) (Finset.sum_congr rfl fun e _ => ?_)
  exact shapeCast_apply mv h1 (ix2 e ⟨3 * h.val + c.val, hq⟩) (ix3 e h c) (by
    rw [Shape.rowMajor_val_two, Shape.rowMajor_val_three]
    show (e.val * 64 + h.val) * 3 + c.val = e.val * 192 + (3 * h.val + c.val)
    omega)

/-- With the flattened array a product `mv(e, h, c) = m(e, h) * d(e, c)` and a zero operand: the value at `(n, h, c)` is
    `∑ {e | idx e = n} m(e, h) * d(e, c)`. -/
theorem shapeCast_scatterAdd_shapeCast_mul_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (hx : ∀ i, x i = 0) (idx : IVec ⟨2, ![E, 1]⟩ w)
    (mv : FVec Ideal ⟨3, ![E, 64, 3]⟩ φ) (m : FVec Ideal ⟨2, ![E, 64]⟩ φ) (d : FVec Ideal ⟨2, ![E, 3]⟩ φ)
    (hmv : ∀ (e : Fin E) (h : Fin 64) (c : Fin 3), mv (ix3 e h c) = m (ix2 e h) * d (ix2 e c))
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = ∑ e ∈ Finset.univ.filter (fun e : Fin E => (idx (ix2 e (0 : Fin 1))).toInt = (n.val : Int)),
          m (ix2 e h) * d (ix2 e c) := by
  rw [shapeCast_scatterAdd_shapeCast_apply wf3 h1 h2 x idx mv n h c, hx, zero_add]
  exact Finset.sum_congr rfl fun e _ => hmv e h c

end RowScatter

end Cert.Spec

end
-- ==== Proof.LibTakeRows.lean ====
/-
  Row gathers: `jnp.take` in fill mode and plain `arr[idx]` are the same rows when every index is in range.

  Both programs gather rows of a two-axis array `arr : [N, 64]` at a vector `idx : [800000]` of 32-bit indices
  (`N = 800000` and `N = 50000`). Both first wrap a negative index, `idx' = select (idx < 0) (idx + N) idx`, and
  broadcast it to a column `w : [800000, 1]`. One program then gathers `arr` at `w` (`stablehlo.gather` with offset
  axis 1, collapsed axis 0, start index map [0], index vector axis 1 and slices [1, 64]; the start index is read signed
  and clamped into [0, N − 1]). The other also computes, per row, whether `0 ≤ w ≤ N − 1` (a reduction by `and` over
  the column's one entry), gathers the same way, and selects the gathered row where the test holds and a constant
  row where it does not.

  For `0 ≤ idx i < N` (signed): the wrap is the identity (`wrap_apply`), the range test holds in every row
  (`inRange_eq_one`), the clamp is the identity, and both terms are the function `rows`:
  entry `(i, c) ↦ arr (idx i, c)` (`take_fill_eq_rows`, `take_clip_eq_rows`, hence `take_fill_eq_take_clip`).
  The float instance is arbitrary; no float operation is involved beyond the constant row that is never selected.

  The gather's dimension numbers are a parameter constrained by its fields (`RowGather`), so the lemmas apply to any
  record with those fields whatever the proof of its side conditions; the shape facts of the broadcasts and of the
  reduction are parameters too.
-/
import Idealize.ShloMosaic.Lib.ValueIdx
import Idealize.ShloMosaic.Lib.ReduceAll

noncomputable section

namespace Cert.TakeRows

open Idealize.ShloMosaic Idealize.ShloMosaic.ValueIdx

abbrev S_ : Shape := ⟨0, ![]⟩
abbrev S1 : Shape := ⟨1, ![1]⟩
abbrev S1x1 : Shape := ⟨2, ![1, 1]⟩
abbrev S800000 : Shape := ⟨1, ![800000]⟩
abbrev S800000x1 : Shape := ⟨2, ![800000, 1]⟩
abbrev S800000x64 : Shape := ⟨2, ![800000, 64]⟩
abbrev S50000x64 : Shape := ⟨2, ![50000, 64]⟩

/-! ## The gather read at an index -/

section Gather
variable {α : Type}

/-- The dimension numbers of a row gather: operand `[N, C]`, start indices `[R, 1]`, result `[R, C]`. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[t, 0]` of result index `(t, c)`. -/
abbrev rowIdx {R C : Nat} (y : (⟨2, ![R, C]⟩ : Shape).Idx) : (⟨2, ![R, 1]⟩ : Shape).Idx :=
  ix2 (⟨(y 0).val, idx2_lt0 y⟩ : Fin R) (⟨0, Nat.one_pos⟩ : Fin 1)

/-- THE GATHER READ AT `(t, c)`: the operand's row at the start index `idx[t, 0]`, read signed and clamped into
    `[0, N − 1]`, at column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N R C wf).start y idx 1 + (rowDims N R C wf).batchCoord y 1 + (rowDims N R C wf).offCoord y 1 = (y 1).val
    rw [GatherDims.batchCoord_eq_zero _ _ _ List.not_mem_nil]
    have hs : (rowDims N R C wf).start y idx 1 = 0 := by
      unfold GatherDims.start
      rw [dif_neg (show ¬ (1 : Fin 2) ∈ (rowDims N R C wf).startIndexMap from
        fun h => absurd (Fin.val_eq_of_eq (List.mem_singleton.mp h)) Nat.one_ne_zero)]
    rw [hs]
    simp only [Nat.add_zero, Nat.zero_add]
    rfl

/-- A gather's dimension numbers are a row gather's: its seven fields are the ones above (each holds by `rfl` for a
    record written with them). -/
structure RowGather {N R C : Nat} (d : GatherDims ⟨2, ![N, C]⟩ ⟨2, ![R, 1]⟩ ⟨2, ![R, C]⟩) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, C]

/-- The same reading for any record with a row gather's fields. -/
theorem gather_apply {N R C w : Nat} (hN : 0 < N) (d : GatherDims ⟨2, ![N, C]⟩ ⟨2, ![R, 1]⟩ ⟨2, ![R, C]⟩) (hd : RowGather d)
    (x : (⟨2, ![N, C]⟩ : Shape).Idx → α) (idx : IVec ⟨2, ![R, 1]⟩ w) (y : (⟨2, ![R, C]⟩ : Shape).Idx) :
    Host.gather d x idx y
      = x (ix2 (⟨min (idx (rowIdx y)).toInt.toNat (N - 1), by omega⟩ : Fin N) (⟨(y 1).val, idx2_lt1 y⟩ : Fin C)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  exact gather_rows_apply hN wf x idx y

end Gather

/-! ## Words -/

theorem toInt_zero : (0#32 : BitVec 32).toInt = 0 := by decide
theorem toInt_799999 : (799999#32 : BitVec 32).toInt = 799999 := by decide
theorem toInt_49999 : (49999#32 : BitVec 32).toInt = 49999 := by decide

/-- A reduction by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_ones f l fun n hn => h n (List.mem_cons_of_mem _ hn)

/-- `jnp.all` of an array of ones, at any result index: the converse of `Host.reduce_andi_eq_one`. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun n _ => hx n

/-! ## The index pipeline: wrap, column -/

/-- The wrap `select (idx < 0) (idx + n) idx` leaves a nonnegative index alone. -/
theorem wrap_apply (bc0 : S_.BroadcastsInDim S800000 ![]) (n : BitVec 32) (idx : IVec S800000 32) (i : S800000.Idx)
    (h0 : 0 ≤ (idx i).toInt) :
    select (cmpi .slt idx (broadcastInDim S800000 ![] bc0 (constantI S_ 32 0#32)))
      (addi idx (broadcastInDim S800000 ![] bc0 (constantI S_ 32 n))) idx i = idx i := by
  show Scalar.select (IntOp.cmpi .slt (idx i) 0#32) _ _ = _
  unfold Scalar.select
  rw [if_neg]
  intro hc
  have := IntOp.cmpi_slt.1 hc
  rw [toInt_zero] at this
  omega

/-- So on an array of nonnegative indices the wrap is the identity. -/
theorem wrap_eq (bc0 : S_.BroadcastsInDim S800000 ![]) (n : BitVec 32) (idx : IVec S800000 32)
    (h0 : ∀ i, 0 ≤ (idx i).toInt) :
    select (cmpi .slt idx (broadcastInDim S800000 ![] bc0 (constantI S_ 32 0#32)))
      (addi idx (broadcastInDim S800000 ![] bc0 (constantI S_ 32 n))) idx = idx :=
  funext fun i => wrap_apply bc0 n idx i (h0 i)

/-- The column `[800000, 1]` of a vector `[800000]` reads the vector at the row. -/
theorem col_apply {w : Nat} (bc1 : S800000.BroadcastsInDim S800000x1 ![0]) (v : IVec S800000 w) (y : S800000x1.Idx) :
    broadcastInDim S800000x1 ![0] bc1 v y = v (ix1 (⟨(y 0).val, idx2_lt0 y⟩ : Fin 800000)) := by
  unfold broadcastInDim
  refine congrArg v (funext fun a => ?_)
  match a with
  | ⟨0, _⟩ =>
    refine Fin.ext ?_
    rw [dif_neg (show ¬ S800000.size ⟨0, by decide⟩ = 1 from by decide)]
    rfl

/-! ## The two programs' terms -/

/-- A nonnegative signed reading is the unsigned reading. -/
theorem toInt_eq_toNat {x : BitVec 32} (h : 0 ≤ x.toInt) : x.toInt = (x.toNat : Int) :=
  BitVec.toInt_eq_toNat_of_lt (BitVec.toInt_pos_iff.mp h)

/-- Equal row numbers give the same entry. -/
theorem row_congr {α : Type} {N : Nat} (arr : (⟨2, ![N, 64]⟩ : Shape).Idx → α) {a b : Nat} (ha : a < N) (hb : b < N)
    (c : Fin 64) (e : a = b) : arr (ix2 (⟨a, ha⟩ : Fin N) c) = arr (ix2 (⟨b, hb⟩ : Fin N) c) := by
  subst e; rfl

/-- THE ROWS: entry `(i, c)` is `arr` at row `idx i` (read signed, clamped into `[0, N − 1]`) and column `c`. -/
def rows {α : Type} {N : Nat} (hN : 0 < N) (arr : (⟨2, ![N, 64]⟩ : Shape).Idx → α) (idx : IVec S800000 32) : S800000x64.Idx → α :=
  fun y => arr (ix2 (⟨min (idx (ix1 (⟨(y 0).val, idx2_lt0 y⟩ : Fin 800000))).toInt.toNat (N - 1), by omega⟩ : Fin N)
    (⟨(y 1).val, idx2_lt1 y⟩ : Fin 64))

/-- For an index in range the clamp is the identity: the row is `idx i` read unsigned. -/
theorem rows_apply {α : Type} {N : Nat} (hN : 0 < N) (arr : (⟨2, ![N, 64]⟩ : Shape).Idx → α) (idx : IVec S800000 32)
    (y : S800000x64.Idx) (h0 : 0 ≤ (idx (ix1 (⟨(y 0).val, idx2_lt0 y⟩ : Fin 800000))).toInt)
    (h1 : (idx (ix1 (⟨(y 0).val, idx2_lt0 y⟩ : Fin 800000))).toInt < N)
    (hlt : (idx (ix1 (⟨(y 0).val, idx2_lt0 y⟩ : Fin 800000))).toNat < N) :
    rows hN arr idx y
      = arr (ix2 (⟨(idx (ix1 (⟨(y 0).val, idx2_lt0 y⟩ : Fin 800000))).toNat, hlt⟩ : Fin N) (⟨(y 1).val, idx2_lt1 y⟩ : Fin 64)) := by
  unfold rows
  have e : min (idx (ix1 (⟨(y 0).val, idx2_lt0 y⟩ : Fin 800000))).toInt.toNat (N - 1)
      = (idx (ix1 (⟨(y 0).val, idx2_lt0 y⟩ : Fin 800000))).toNat := by
    have := toInt_eq_toNat h0
    omega
  exact row_congr arr _ _ _ e

section Take
variable {F : FTy → Type} [FloatOps F]
variable (bc0 : S_.BroadcastsInDim S800000 ![]) (bc1 : S800000.BroadcastsInDim S800000x1 ![0])
  (bc2 : S_.BroadcastsInDim S800000x1 ![]) (bc3 : S1.BroadcastsInDim S1x1 ![1])
  (bc4 : S1x1.BroadcastsInDim S800000x1 ![0, 1]) (red : S800000x1.ReducesTo [1] S800000) (hS : 0 < S_.numel)
  (bc5 : S800000.BroadcastsInDim S800000x64 ![0]) (bc6 : S_.BroadcastsInDim S800000x64 ![])

/-- The per-row range test `all (0 ≤ w ∧ w ≤ m)` over the column's one entry is 1 in every row when every entry of
    the column lies in `[0, m]` (signed). -/
theorem inRange_eq_one (m : BitVec 32) (M : Int) (hm : m.toInt = M) (w : IVec S800000x1 32)
    (hw : ∀ y, 0 ≤ (w y).toInt ∧ (w y).toInt ≤ M) (j : S800000.Idx) :
    Host.reduce IntOp.andi
      (andi (cmpi .sge w (broadcastInDim S800000x1 ![] bc2 (constantI S_ 32 0#32)))
        (cmpi .sle w (broadcastInDim S800000x1 ![0, 1] bc4 (broadcastInDim S1x1 ![1] bc3 (constantI S1 32 m)))))
      (constantI S_ 1 1#1) red hS j = 1#1 := by
  refine reduce_andi_of_all _ _ red hS j rfl fun y => ?_
  show IntOp.andi (IntOp.cmpi .sge (w y) 0#32) (IntOp.cmpi .sle (w y) m) = 1#1
  rw [IntOp.andi_eq_one]
  refine ⟨IntOp.cmpi_sge.2 ?_, IntOp.cmpi_sle.2 ?_⟩
  · rw [toInt_zero]; exact (hw y).1
  · rw [hm]; exact (hw y).2

/-- PLAIN `arr[idx]`: the gather at the wrapped index column is the rows, for nonnegative indices. -/
theorem take_clip_eq_rows {N : Nat} (hN : 0 < N) (n : BitVec 32)
    (d : GatherDims ⟨2, ![N, 64]⟩ S800000x1 S800000x64) (hd : RowGather d)
    (arr : FVec F ⟨2, ![N, 64]⟩ .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 n))) idx))
      = rows hN arr idx := by
  rw [wrap_eq bc0 n idx h0]
  funext y
  rw [gather_apply hN d hd]
  refine row_congr arr _ _ _ ?_
  rw [col_apply]

/-- `jnp.take` IN FILL MODE: for indices in `[0, N)` the range test holds in every row, so the select takes the
    gathered row everywhere, and the term is the rows. `m` is the word of `N − 1`. -/
theorem take_fill_eq_rows {N : Nat} (hN : 0 < N) (n m : BitVec 32) (hm : m.toInt = (N : Int) - 1)
    (d : GatherDims ⟨2, ![N, 64]⟩ S800000x1 S800000x64) (hd : RowGather d)
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = rows hN arr idx := by
  rw [← take_clip_eq_rows bc0 bc1 hN n d hd arr idx h0, wrap_eq bc0 n idx h0]
  have hmask : Host.reduce IntOp.andi
      (andi (cmpi .sge (broadcastInDim S800000x1 ![0] bc1 idx) (broadcastInDim S800000x1 ![] bc2 (constantI S_ 32 0#32)))
        (cmpi .sle (broadcastInDim S800000x1 ![0] bc1 idx)
          (broadcastInDim S800000x1 ![0, 1] bc4 (broadcastInDim S1x1 ![1] bc3 (constantI S1 32 m)))))
      (constantI S_ 1 1#1) red hS = fun _ => 1#1 :=
    funext fun j => inRange_eq_one bc2 bc3 bc4 red hS m _ hm _ (fun y => by
      rw [col_apply]
      have a := h0 (ix1 (⟨(y 0).val, idx2_lt0 y⟩ : Fin 800000))
      have b := h1 (ix1 (⟨(y 0).val, idx2_lt0 y⟩ : Fin 800000))
      exact ⟨a, by omega⟩) j
  rw [hmask]
  funext y
  show Scalar.select 1#1 _ _ = _
  rw [select_one]

/-- So the two programs' gathers are ONE function of the array and the indices, for indices in range. -/
theorem take_fill_eq_take_clip {N : Nat} (hN : 0 < N) (n n' m : BitVec 32) (hm : m.toInt = (N : Int) - 1)
    (d d' : GatherDims ⟨2, ![N, 64]⟩ S800000x1 S800000x64) (hd : RowGather d) (hd' : RowGather d')
    (bc0' : S_.BroadcastsInDim S800000 ![]) (bc1' : S800000.BroadcastsInDim S800000x1 ![0])
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = Host.gather d' arr (broadcastInDim S800000x1 ![0] bc1'
          (select (cmpi .slt idx (broadcastInDim S800000 ![] bc0' (constantI S_ 32 0#32)))
            (addi idx (broadcastInDim S800000 ![] bc0' (constantI S_ 32 n'))) idx)) :=
  (take_fill_eq_rows bc0 bc1 bc2 bc3 bc4 red hS bc5 bc6 hN n m hm d hd arr idx h0 h1).trans
    (take_clip_eq_rows bc0' bc1' hN n' d' hd' arr idx h0).symm

end Take

/-! ## The two extents -/

section Extents
variable {F : FTy → Type} [FloatOps F]

theorem pos_800000 : 0 < 800000 := by decide
theorem pos_50000 : 0 < 50000 := by decide
theorem toInt_m800000 : (799999#32 : BitVec 32).toInt = ((800000 : Nat) : Int) - 1 := by decide
theorem toInt_m50000 : (49999#32 : BitVec 32).toInt = ((50000 : Nat) : Int) - 1 := by decide

/-- Rows of the `[800000, 64]` array: the fill-mode term (constants `800000`, `799999`) is the rows. -/
theorem take_fill_800000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S800000x64 S800000x1 S800000x64) (hd : RowGather d)
    (arr : FVec F S800000x64 .f32) (idx : IVec S800000 32)
    (h0 : ∀ i, 0 ≤ (idx i).toInt) (h1 : ∀ i, (idx i).toInt < 800000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![0, 1] bc4 (broadcastInDim S1x1 ![1] bc3 (constantI S1 32 799999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 800000#32))) idx)))
      (broadcastInDim S800000x64 ![] bc6 (constant S_ .f32 0x7FC00000#32))
      = rows pos_800000 arr idx :=
  take_fill_eq_rows bc0 bc1 bc2 bc3 bc4 red hS bc5 bc6 pos_800000 800000#32 799999#32 toInt_m800000 d hd arr idx h0
    (fun i => by have := h1 i; exact_mod_cast this)

/-- … and the plain gather at the wrapped index column. -/
theorem take_clip_800000 (bc0 : S_.BroadcastsInDim S800000 ![]) (bc1 : S800000.BroadcastsInDim S800000x1 ![0])
    (d : GatherDims S800000x64 S800000x1 S800000x64) (hd : RowGather d)
    (arr : FVec F S800000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 800000#32))) idx))
      = rows pos_800000 arr idx :=
  take_clip_eq_rows bc0 bc1 pos_800000 800000#32 d hd arr idx h0

/-- Rows of the `[50000, 64]` array: the fill-mode term (constants `50000`, `49999`) is the rows. -/
theorem take_fill_50000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S50000x64 S800000x1 S800000x64) (hd : RowGather d)
    (arr : FVec F S50000x64 .f32) (idx : IVec S800000 32)
    (h0 : ∀ i, 0 ≤ (idx i).toInt) (h1 : ∀ i, (idx i).toInt < 50000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![0, 1] bc4 (broadcastInDim S1x1 ![1] bc3 (constantI S1 32 49999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 50000#32))) idx)))
      (broadcastInDim S800000x64 ![] bc6 (constant S_ .f32 0x7FC00000#32))
      = rows pos_50000 arr idx :=
  take_fill_eq_rows bc0 bc1 bc2 bc3 bc4 red hS bc5 bc6 pos_50000 50000#32 49999#32 toInt_m50000 d hd arr idx h0
    (fun i => by have := h1 i; exact_mod_cast this)

/-- … and the plain gather at the wrapped index column. -/
theorem take_clip_50000 (bc0 : S_.BroadcastsInDim S800000 ![]) (bc1 : S800000.BroadcastsInDim S800000x1 ![0])
    (d : GatherDims S50000x64 S800000x1 S800000x64) (hd : RowGather d)
    (arr : FVec F S50000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 50000#32))) idx))
      = rows pos_50000 arr idx :=
  take_clip_eq_rows bc0 bc1 pos_50000 50000#32 d hd arr idx h0

end Extents

/-! ## Index vectors cut out of a two-row array -/

abbrev S2x800000 : Shape := ⟨2, ![2, 800000]⟩
abbrev S1x800000 : Shape := ⟨2, ![1, 800000]⟩

/-- A row of a `[2, 800000]` array, sliced out and reshaped to `[800000]`, holds entries of the array: what holds of
    every entry of the array holds of every entry of the row (a slice and a reshape only re-index). -/
theorem slice_reshape_all {w : Nat} (off : Fin S2x800000.rank → Nat) (hs : S2x800000.Slices off S1x800000)
    (hc : S1x800000.ShapeCasts S800000) (a : IVec S2x800000 w) (P : BitVec w → Prop) (h : ∀ i, P (a i))
    (i : S800000.Idx) : P (shapeCast S800000 (extractStridedSlice S1x800000 off a hs) hc i) :=
  h _

end Cert.TakeRows

end
-- ==== Proof.LibERealCoe.lean ====
/-
  Pushing the coercion of the reals into the extended reals through finite sums, maxima and minima.

  The coercion ℝ → [-∞, +∞] is an additive map and strictly monotone, so it commutes with a finite sum and with the
  maximum and the minimum of two reals. With these an identity between extended-real expressions whose entries are
  all (coercions of) reals is the coercion of the same identity over ℝ, where distributivity and cancellation hold.
-/
import Mathlib.Data.EReal.Operations
import Mathlib.Algebra.BigOperators.Group.Finset.Basic

open scoped BigOperators

namespace Cert.Spec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The coercion of the smaller of two reals is the smaller of the coercions. -/
theorem coe_min (a b : ℝ) : ((min a b : ℝ) : EReal) = min (a : EReal) (b : EReal) :=
  EReal.coe_strictMono.monotone.map_min

/-- A finite sum of extended reals that are all reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

end Cert.Spec
-- ==== Proof.LibSegmentLinear.lean ====
/-
  A weighted sum of selected rows commutes with a matrix product, on the reals inside the extended reals.

  Take finitely many rows `x e` (indexed by `e ∈ S`), a weight `v e` for each, and a column `w` of a matrix. Then

      ∑ k, (∑ e ∈ S, v e · x e k) · w k  =  ∑ e ∈ S, v e · (∑ k, x e k · w k):

  multiplying the weighted sum of the rows by the matrix is the weighted sum of the rows each multiplied by the matrix
  (a segment sum is linear, so a matrix product may be taken before or after it). Over the reals this is
  distributivity and an exchange of two finite sums. On the extended reals distributivity fails at the infinities, so
  the statement asks that every entry be (the coercion of) a real; it is then the coercion of the real identity.
-/
import proofs.«104869_j91345364451436_2_alg».proof.Proof.LibERealCoe
import Mathlib.Algebra.BigOperators.Ring.Finset
import Mathlib.Algebra.BigOperators.Group.Finset.Sigma

open scoped BigOperators

namespace Cert.Spec

/-- The identity for coerced reals. -/
theorem sum_weighted_rows_mul_coe {ι κ : Type*} (S : Finset ι) (T : Finset κ) (v : ι → ℝ) (x : ι → κ → ℝ) (w : κ → ℝ) :
    ∑ k ∈ T, (∑ e ∈ S, (v e : EReal) * (x e k : EReal)) * (w k : EReal)
      = ∑ e ∈ S, (v e : EReal) * ∑ k ∈ T, (x e k : EReal) * (w k : EReal) := by
  have key : ((∑ k ∈ T, (∑ e ∈ S, v e * x e k) * w k : ℝ) : EReal)
      = ((∑ e ∈ S, v e * ∑ k ∈ T, x e k * w k : ℝ) : EReal) := by
    refine congrArg _ ?_
    simp only [Finset.sum_mul, Finset.mul_sum]
    rw [Finset.sum_comm]
    exact Finset.sum_congr rfl fun e _ => Finset.sum_congr rfl fun k _ => mul_assoc _ _ _
  simpa only [coe_sum, EReal.coe_mul] using key

/-- The identity for extended reals that are all reals. -/
theorem sum_weighted_rows_mul {ι κ : Type*} (S : Finset ι) (T : Finset κ) (v : ι → EReal) (x : ι → κ → EReal)
    (w : κ → EReal) (hv : ∀ e, ∃ r : ℝ, v e = (r : EReal)) (hx : ∀ e k, ∃ r : ℝ, x e k = (r : EReal))
    (hw : ∀ k, ∃ r : ℝ, w k = (r : EReal)) :
    ∑ k ∈ T, (∑ e ∈ S, v e * x e k) * w k = ∑ e ∈ S, v e * ∑ k ∈ T, x e k * w k := by
  choose v' hv' using hv
  choose x' hx' using hx
  choose w' hw' using hw
  have e1 : v = fun e => ((v' e : ℝ) : EReal) := funext hv'
  have e2 : x = fun e k => ((x' e k : ℝ) : EReal) := funext fun e => funext fun k => hx' e k
  have e3 : w = fun k => ((w' k : ℝ) : EReal) := funext hw'
  subst e1 e2 e3
  exact sum_weighted_rows_mul_coe S T v' x' w'

end Cert.Spec
-- ==== Proof.Aggregate.lean ====
/-
  The sparse aggregation both programs share, read at an index, and its linearity.

  Edge e carries a target row number `row e`, a source row number `col e` and a value `val e`. A negative source
  number is wrapped by adding the table's height 100000, and the wrapped number, read signed, is clamped into
  [0, 99999] when the row is gathered: this is the edge's source `src col e`. The host chain

      scatter-add (zeros, row, val ⊙ gather (A, wrap col))

  gathers row `src col e` of a table `A` of 100000 rows for every edge, scales it by `val e`, and adds it into row
  `row e` of a 16384-row array of zeros, dropping the edge when `row e` (read signed) is outside [0, 16384). With
  exact addition its entry (u, c) is

      agg A row col val u c  =  ∑ over the edges e with row e = u of  val e · A (src col e, c).

  Both programs run this chain: one on the embedding table X, one on the product X · W. They agree because the
  aggregation is linear in the table's rows: for real entries,
      ∑ k, agg X … u k · W (k, j)  =  agg (X · W) … u j.
-/
import proofs.«104869_j91345364451436_2_alg».proof.Proof.LibScatterRead
import proofs.«104869_j91345364451436_2_alg».proof.Proof.LibTakeRows
import proofs.«104869_j91345364451436_2_alg».proof.Proof.LibSegmentLinear
import Idealize.ShloMosaic.Lib.Pipeline.Value
import Idealize.ShloMosaic.Lib.ValueIdx
import Idealize.ShloMosaic.PureOps.Ideal.Laws

noncomputable section

open scoped BigOperators

namespace Cert.Agg

open Idealize.ShloMosaic Idealize.ShloMosaic.ValueIdx

abbrev S0 : Shape := ⟨0, ![]⟩
abbrev SE : Shape := ⟨1, ![1048576]⟩
abbrev SE1 : Shape := ⟨2, ![1048576, 1]⟩
abbrev SEC : Shape := ⟨2, ![1048576, 256]⟩
abbrev SN : Shape := ⟨2, ![100000, 256]⟩
abbrev SM : Shape := ⟨2, ![16384, 256]⟩
abbrev SW : Shape := ⟨2, ![256, 256]⟩

/-- The wrapped source number of edge e: `col e + 100000` when `col e` is negative, else `col e`. -/
def wrapped (col : IVec SE 32) (e : Fin 1048576) : BitVec 32 :=
  Scalar.select (IntOp.cmpi .slt (col (ix1 e)) 0#32) (IntOp.addi (col (ix1 e)) 100000#32) (col (ix1 e))

/-- The source row of edge e: the wrapped number read signed and clamped into [0, 99999]. -/
def src (col : IVec SE 32) (e : Fin 1048576) : Fin 100000 :=
  ⟨min (wrapped col e).toInt.toNat (100000 - 1), by omega⟩

/-- The edges whose target row (read signed) is u. -/
def into (row : IVec SE 32) (u : Fin 16384) : Finset (Fin 1048576) :=
  Finset.univ.filter fun e => (row (ix1 e)).toInt = (u.val : Int)

/-- Entry (u, c) of the aggregate of the table A. -/
def agg (A : SN.Idx → EReal) (row col : IVec SE 32) (val : SE.Idx → EReal) (u : Fin 16384) (c : Fin 256) : EReal :=
  ∑ e ∈ into row u, val (ix1 e) * A (ix2 (src col e) c)

/-- A vector of one entry per edge laid as a column reads the vector at the edge. -/
theorem column_apply {α : Type} (hbI : SE.BroadcastsInDim SE1 ![0]) (v : SE.Idx → α) (e : Fin 1048576) :
    broadcastInDim SE1 ![0] hbI v (ix2 e (0 : Fin 1)) = v (ix1 e) :=
  broadcastInDim_apply _ hbI v (ix2 e (0 : Fin 1)) (ix1 e) (fun a => match a with
    | ⟨0, _⟩ => by show e.val = if (1048576 : Nat) = 1 then 0 else e.val; rw [if_neg (by decide)])

/-- That column laid along the 256 columns reads the vector at the edge. -/
theorem columns_apply {α : Type} (hbI : SE.BroadcastsInDim SE1 ![0]) (hbW : SE1.BroadcastsInDim SEC ![0, 1])
    (v : SE.Idx → α) (e : Fin 1048576) (c : Fin 256) :
    broadcastInDim SEC ![0, 1] hbW (broadcastInDim SE1 ![0] hbI v) (ix2 e c) = v (ix1 e) :=
  (broadcastInDim_apply _ hbW (broadcastInDim SE1 ![0] hbI v) (ix2 e c) (ix2 e (0 : Fin 1)) (fun a => match a with
    | ⟨0, _⟩ => by show e.val = if (1048576 : Nat) = 1 then 0 else e.val; rw [if_neg (by decide)]
    | ⟨1, _⟩ => by show (0 : Nat) = if (1 : Nat) = 1 then 0 else c.val; rw [if_pos rfl])).trans (column_apply hbI v e)

/-- THE CHAIN READ AT (u, c), whatever proofs its dimension numbers and broadcasts carry. -/
theorem chain_apply
    (wfS : ScatterDims.WF SM SE1 SEC [1] [0] [0] 1)
    (wfG : GatherDims.WF SN SE1 SEC [1] [0] [] [0] [] 1 ![1, 256])
    (hbZ : S0.BroadcastsInDim SM ![]) (hbI : SE.BroadcastsInDim SE1 ![0]) (hbW : SE1.BroadcastsInDim SEC ![0, 1])
    (hb0 : S0.BroadcastsInDim SE ![])
    (A : FVec Ideal SN .f32) (row col : IVec SE 32) (val : FVec Ideal SE .f32) (u : Fin 16384) (c : Fin 256) :
    Host.scatterAdd (Cert.Spec.rowScatter 16384 1048576 256 wfS)
        (broadcastInDim SM ![] hbZ (constant (F := Ideal) S0 .f32 0x00000000#32))
        (broadcastInDim SE1 ![0] hbI row)
        (mulf (broadcastInDim SEC ![0, 1] hbW (broadcastInDim SE1 ![0] hbI val))
          (Host.gather (Cert.TakeRows.rowDims 100000 1048576 256 wfG) A
            (broadcastInDim SE1 ![0] hbI
              (select (cmpi .slt col (broadcastInDim SE ![] hb0 (constantI S0 32 0#32)))
                (addi col (broadcastInDim SE ![] hb0 (constantI S0 32 100000#32))) col)))) (ix2 u c)
      = agg A row col val u c := by
  rw [Cert.Spec.scatterAdd_rowScatter_apply]
  have hz : broadcastInDim SM ![] hbZ (constant (F := Ideal) S0 .f32 0x00000000#32) (ix2 u c) = 0 :=
    Ideal.ofBits_zero_f32
  rw [hz, zero_add]
  have hf : (Finset.univ.filter fun e : Fin 1048576 =>
      (broadcastInDim SE1 ![0] hbI row (ix2 e (0 : Fin 1))).toInt = (u.val : Int)) = into row u :=
    Finset.filter_congr fun e _ => by rw [column_apply hbI row e]
  rw [hf]
  unfold agg
  refine Finset.sum_congr rfl fun e _ => ?_
  rw [mulf_apply, columns_apply hbI hbW val e c]
  refine congrArg (val (ix1 e) * ·) ?_
  have hidx : broadcastInDim SE1 ![0] hbI
      (select (cmpi .slt col (broadcastInDim SE ![] hb0 (constantI S0 32 0#32)))
        (addi col (broadcastInDim SE ![] hb0 (constantI S0 32 100000#32))) col)
      (Cert.TakeRows.rowIdx (ix2 e c)) = wrapped col e :=
    column_apply hbI _ e
  refine (Cert.TakeRows.gather_rows_apply (by decide) wfG A _ (ix2 e c)).trans ?_
  refine congrArg A (funext fun a => Fin.ext ?_)
  match a with
  | ⟨0, _⟩ =>
    show min (_ : BitVec 32).toInt.toNat (100000 - 1) = min (wrapped col e).toInt.toNat (100000 - 1)
    rw [hidx]
  | ⟨1, _⟩ => rfl

/-- LINEARITY: for real entries, the aggregate of X followed by the product with W is the aggregate of X · W. -/
theorem agg_mul (X : SN.Idx → EReal) (W : SW.Idx → EReal) (XW : SN.Idx → EReal) (row col : IVec SE 32)
    (val : SE.Idx → EReal)
    (hXW : ∀ (n : Fin 100000) (j : Fin 256), XW (ix2 n j) = ∑ k : Fin 256, X (ix2 n k) * W (ix2 k j))
    (hX : ∀ i, ∃ r : ℝ, X i = (r : EReal)) (hval : ∀ i, ∃ r : ℝ, val i = (r : EReal))
    (hW : ∀ i, ∃ r : ℝ, W i = (r : EReal)) (u : Fin 16384) (j : Fin 256) :
    ∑ k : Fin 256, agg X row col val u k * W (ix2 k j) = agg XW row col val u j := by
  unfold agg
  rw [Cert.Spec.sum_weighted_rows_mul (into row u) Finset.univ (fun e => val (ix1 e)) (fun e k => X (ix2 (src col e) k))
    (fun k => W (ix2 k j)) (fun e => hval _) (fun e k => hX _) (fun k => hW _)]
  exact Finset.sum_congr rfl fun e _ => by rw [hXW]

end Cert.Agg

end
-- ==== Proof.KernelHost.lean ====
/-
  What the region finds in the two arrays the host computes before it.

  The aggregated array is the shared chain (scatter-add of the scaled gathered rows of the embedding table), so its
  entry (u, k) is the aggregate `agg X row col val u k`; the bias row is the bias vector viewed as a 1×256 array,
  so its entry (0, j) is the bias at j.
-/
import proofs.«104869_j91345364451436_2_alg».proof.Proof.Gen.KernelIdeal.Frame
import proofs.«104869_j91345364451436_2_alg».proof.Proof.Aggregate
import Idealize.ShloMosaic.Lib.StableHlo.Run
import Idealize.ShloMosaic.Lib.Pipeline.Value

noncomputable section

open Idealize.ShloMosaic Idealize.ShloMosaic.TcCoe Idealize.SL.Sem Idealize.ShloMosaic.ValueIdx Idealize.ShloMosaic.StableHlo

namespace Cert.KernelIdeal.HostSide

open Cert.KernelIdeal Cert.KernelIdeal.Gen

variable (m : (ℓ : Loc nD τ sig) → Buf (Elt Ideal) ℓ)

/-- The aggregated array as the chain of host operations applied to the arguments. -/
theorem v12_eq (c : Dev nD) :
    (V m c main_v12 : S16384x256.Idx → EReal)
      = Host.scatterAdd scatter_S16384x256_S1048576x1_S1048576x256_1_0_0_1
          (broadcastInDim S16384x256 ![] bcast_S_S16384x256 (constant (F := Ideal) S_ .f32 0x00000000#32))
          (broadcastInDim S1048576x1 ![0] bcast_S1048576_S1048576x1_0 (m ((c : Thread nD τ).loc main_arg2)))
          (mulf (broadcastInDim S1048576x256 ![0, 1] bcast_S1048576x1_S1048576x256_0_1
              (broadcastInDim S1048576x1 ![0] bcast_S1048576_S1048576x1_0 (m ((c : Thread nD τ).loc main_arg4))))
            (Host.gather gather_S100000x256_S1048576x1_S1048576x256_1_0_n_n_0_1_1256 (m ((c : Thread nD τ).loc main_arg0))
              (broadcastInDim S1048576x1 ![0] bcast_S1048576_S1048576x1_0
                (select (cmpi .slt (m ((c : Thread nD τ).loc main_arg3)) (broadcastInDim S1048576 ![] bcast_S_S1048576 (constantI S_ 32 0#32)))
                  (addi (m ((c : Thread nD τ).loc main_arg3)) (broadcastInDim S1048576 ![] bcast_S_S1048576 (constantI S_ 32 100000#32)))
                  (m ((c : Thread nD τ).loc main_arg3)))))) := by
  dsimp only [Gen.V, Gen.hostOps0]
  after_results <;> rfl

/-- The bias row as the reshape of the bias vector. -/
theorem v13_eq (c : Dev nD) :
    (V m c main_v13 : S1x256.Idx → EReal)
      = shapeCast S1x256 (m ((c : Thread nD τ).loc main_arg7)) shapeCasts_S256_S1x256 := by
  dsimp only [Gen.V, Gen.hostOps0]
  after_results <;> rfl

/-- Entry (u, k) of the aggregated array. -/
theorem v12_apply (c : Dev nD) (u : Fin 16384) (k : Fin 256) :
    (V m c main_v12 : S16384x256.Idx → EReal) (ix2 u k)
      = Cert.Agg.agg (m ((c : Thread nD τ).loc main_arg0)) (m ((c : Thread nD τ).loc main_arg2))
          (m ((c : Thread nD τ).loc main_arg3)) (m ((c : Thread nD τ).loc main_arg4)) u k :=
  (congrFun (v12_eq m c) (ix2 u k)).trans (Cert.Agg.chain_apply _ _ _ _ _ _ _ _ _ _ u k)

/-- Entry (0, j) of the bias row. -/
theorem v13_apply (c : Dev nD) (j : Fin 256) :
    (V m c main_v13 : S1x256.Idx → EReal) (ix2 (0 : Fin 1) j) = (m ((c : Thread nD τ).loc main_arg7) : S256.Idx → EReal) (ix1 j) :=
  (congrFun (v13_eq m c) (ix2 (0 : Fin 1) j)).trans
    (shapeCast_apply _ shapeCasts_S256_S1x256 (ix2 (0 : Fin 1) j) (ix1 j) (by
      rw [Shape.rowMajor_val_one, Shape.rowMajor_val_two]
      show j.val = 0 * 256 + j.val
      omega))

end Cert.KernelIdeal.HostSide

end
-- ==== Proof.Result.lean ====
/-
  The result both programs compute, as one function of the eight arguments.

  With the product X · Wp of the embedding table and the first weight matrix, entry (n, j) = ∑ k, X (n, k) · Wp (k, j),
  the result's entry (u, j) is

      max ((agg (X · Wp) row col val u j + ∑ k, U (u, k) · Wu (k, j)) + b j) 0.

  The reference computes exactly this. The kernel aggregates X first and multiplies by Wp afterwards; by the
  linearity of the aggregation (`agg_mul`), for real entries of X, val and Wp, that is the same number.
-/
import proofs.«104869_j91345364451436_2_alg».proof.Proof.Aggregate

noncomputable section

open scoped BigOperators

namespace Cert.Agg

open Idealize.ShloMosaic Idealize.ShloMosaic.ValueIdx

abbrev SB : Shape := ⟨1, ![256]⟩
abbrev SB1 : Shape := ⟨2, ![1, 256]⟩

/-- The product X · W, entry by entry. -/
def prod (X : SN.Idx → EReal) (W : SW.Idx → EReal) : SN.Idx → EReal :=
  fun i => ∑ k : Fin 256, X (ix2 (⟨(i 0).val, idx2_lt0 i⟩ : Fin 100000) k) * W (ix2 k (⟨(i 1).val, idx2_lt1 i⟩ : Fin 256))

theorem prod_ix2 (X : SN.Idx → EReal) (W : SW.Idx → EReal) (n : Fin 100000) (j : Fin 256) :
    prod X W (ix2 n j) = ∑ k : Fin 256, X (ix2 n k) * W (ix2 k j) := rfl

/-- Entry (u, j) of the result. -/
def resAt (X : SN.Idx → EReal) (U : SM.Idx → EReal) (row col : IVec SE 32) (val : SE.Idx → EReal)
    (Wp Wu : SW.Idx → EReal) (b : SB.Idx → EReal) (u : Fin 16384) (j : Fin 256) : EReal :=
  max ((agg (prod X Wp) row col val u j + ∑ k : Fin 256, U (ix2 u k) * Wu (ix2 k j)) + b (ix1 j))
    (Ideal.ofBits .f32 0x00000000#32)

/-- The result. -/
def res (X : SN.Idx → EReal) (U : SM.Idx → EReal) (row col : IVec SE 32) (val : SE.Idx → EReal)
    (Wp Wu : SW.Idx → EReal) (b : SB.Idx → EReal) : SM.Idx → EReal :=
  fun i => resAt X U row col val Wp Wu b ⟨(i 0).val, idx2_lt0 i⟩ ⟨(i 1).val, idx2_lt1 i⟩

theorem res_ix2 (X : SN.Idx → EReal) (U : SM.Idx → EReal) (row col : IVec SE 32) (val : SE.Idx → EReal)
    (Wp Wu : SW.Idx → EReal) (b : SB.Idx → EReal) (u : Fin 16384) (j : Fin 256) :
    res X U row col val Wp Wu b (ix2 u j) = resAt X U row col val Wp Wu b u j := rfl

/-- The dense stage on aggregated rows P that are the aggregate of X, with bias row B holding b, is the result:
    the product with Wp moves inside the aggregation. -/
theorem dense_of_agg (P U : SM.Idx → EReal) (Wp Wu : SW.Idx → EReal) (B : SB1.Idx → EReal)
    (X : SN.Idx → EReal) (row col : IVec SE 32) (val : SE.Idx → EReal) (b : SB.Idx → EReal) (u : Fin 16384) (j : Fin 256)
    (hP : ∀ k : Fin 256, P (ix2 u k) = agg X row col val u k) (hB : B (ix2 (0 : Fin 1) j) = b (ix1 j))
    (hX : ∀ i, ∃ r : ℝ, X i = (r : EReal)) (hval : ∀ i, ∃ r : ℝ, val i = (r : EReal))
    (hW : ∀ i, ∃ r : ℝ, Wp i = (r : EReal)) :
    max ((∑ k : Fin 256, P (ix2 u k) * Wp (ix2 k j) + ∑ k : Fin 256, U (ix2 u k) * Wu (ix2 k j)) + B (ix2 (0 : Fin 1) j))
        (Ideal.ofBits .f32 0x00000000#32)
      = resAt X U row col val Wp Wu b u j := by
  have e : ∑ k : Fin 256, P (ix2 u k) * Wp (ix2 k j) = ∑ k : Fin 256, agg X row col val u k * Wp (ix2 k j) :=
    Finset.sum_congr rfl fun k _ => by rw [hP k]
  rw [e, agg_mul X Wp (prod X Wp) row col val (fun _ _ => rfl) hX hval hW u j, hB]
  rfl

end Cert.Agg

end
-- ==== Proof.KernelResult.lean ====
/-
  The kernel's result array is the result function of the arguments, when the embedding table, the edge values and
  the first weight matrix hold real numbers.

  The array after the run is the dense stage of the arrays the region finds. Of those, the aggregated rows are the
  aggregate of the embedding table and the bias row is the bias; the product with the first weight matrix then
  moves inside the aggregation by linearity, which is where the three arrays' entries must be real.
-/
import proofs.«104869_j91345364451436_2_alg».proof.Proof.KernelValue
import proofs.«104869_j91345364451436_2_alg».proof.Proof.KernelHost
import proofs.«104869_j91345364451436_2_alg».proof.Proof.Result

noncomputable section

open Idealize.ShloMosaic Idealize.ShloMosaic.TcCoe Idealize.SL.Sem Idealize.ShloMosaic.ValueIdx

namespace Cert.KernelIdeal.Whole

open Cert.KernelIdeal Cert.KernelIdeal.Gen

variable (m : (ℓ : Loc nD τ sig) → Buf (Elt Ideal) ℓ)

theorem G_eq_res (c : Dev nD)
    (hX : ∀ i, ∃ r : ℝ, (m ((c : Thread nD τ).loc main_arg0) : S100000x256.Idx → EReal) i = (r : EReal))
    (hval : ∀ i, ∃ r : ℝ, (m ((c : Thread nD τ).loc main_arg4) : S1048576.Idx → EReal) i = (r : EReal))
    (hW : ∀ i, ∃ r : ℝ, (m ((c : Thread nD τ).loc main_arg5) : S256x256.Idx → EReal) i = (r : EReal)) :
    G m c = Cert.Agg.res (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  funext i
  obtain ⟨u, j, rfl⟩ : ∃ (u : Fin 16384) (j : Fin 256), i = ix2 u j := ⟨i 0, i 1, eq_ix2 i⟩
  show Dense.outAt (V m c main_v12) (V m c main_arg1) (V m c main_arg5) (V m c main_arg6) (V m c main_v13) u j = _
  rw [V_main_arg1 m c, V_main_arg5 m c, V_main_arg6 m c]
  exact Cert.Agg.dense_of_agg _ _ _ _ _ _ _ _ _ _ u j (HostSide.v12_apply m c u) (HostSide.v13_apply m c j) hX hval hW

end Cert.KernelIdeal.Whole

end
-- ==== Proof.RefValue.lean ====
/-
  The reference's result term is the result function of its arguments.

  Read one operation at a time: the last operation is the maximum with the zero splat; under it the two additions;
  the bias laid along the rows reads the bias at the column; the user product reads as the sum over the contracted
  coordinate; and the scatter-add is the shared chain applied to the product of the embedding table with the first
  weight matrix, so its entry (u, j) is the aggregate of that product.
-/
import proofs.«104869_j91345364451436_2_alg».proof.Proof.Gen.ReferenceIdeal.Read
import proofs.«104869_j91345364451436_2_alg».proof.Proof.Result

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's product of the embedding table with the first weight matrix is `prod`. -/
theorem v0_eq (x0 : (⟨S100000x256, .f32⟩ : BufTy).Contents (Elt Ideal)) (x5 : (⟨S256x256, .f32⟩ : BufTy).Contents (Elt Ideal)) :
    val_main_v0 (F := Ideal) x0 x5 = Cert.Agg.prod x0 x5 := by
  funext i
  obtain ⟨n, j, rfl⟩ : ∃ (n : Fin 100000) (j : Fin 256), i = ix2 n j := ⟨i 0, i 1, eq_ix2 i⟩
  rw [val_main_v0_apply, Cert.Agg.prod_ix2]
  refine Finset.sum_congr rfl fun k _ => ?_
  have il : lidx_main_v0 (ix2 n j) k = ix2 n k := funext fun a => Fin.ext (by match a with | ⟨0, _⟩ => rfl | ⟨1, _⟩ => rfl)
  have ir : ridx_main_v0 (ix2 n j) k = ix2 k j := funext fun a => Fin.ext (by match a with | ⟨0, _⟩ => rfl | ⟨1, _⟩ => rfl)
  rw [il, ir]

/-- Entry (u, j) of the reference's result. -/
theorem v19_apply (x0 : (⟨S100000x256, .f32⟩ : BufTy).Contents (Elt Ideal)) (x1 : (⟨S16384x256, .f32⟩ : BufTy).Contents (Elt Ideal))
    (x2 x3 : (⟨S1048576, .i32⟩ : BufTy).Contents (Elt Ideal)) (x4 : (⟨S1048576, .f32⟩ : BufTy).Contents (Elt Ideal))
    (x5 x6 : (⟨S256x256, .f32⟩ : BufTy).Contents (Elt Ideal)) (x7 : (⟨S256, .f32⟩ : BufTy).Contents (Elt Ideal))
    (u : Fin 16384) (j : Fin 256) :
    val_main_v19 (F := Ideal) x0 x1 x2 x3 x4 x5 x6 x7 (ix2 u j) = Cert.Agg.resAt x0 x1 x2 x3 x4 x5 x6 x7 u j := by
  rw [val_main_v19_apply, val_main_v18_apply, val_main_v15_apply, val_main_call0_v0_apply, val_main_call0_cst_apply,
    val_main_v17_apply, val_main_v16_apply, val_main_v14_apply]
  have e13 : val_main_v13 (F := Ideal) x0 x2 x3 x4 x5 (ix2 u j)
      = Cert.Agg.agg (val_main_v0 (F := Ideal) x0 x5) x2 x3 x4 u j :=
    Cert.Agg.chain_apply _ _ _ _ _ _ (val_main_v0 (F := Ideal) x0 x5) x2 x3 x4 u j
  rw [e13, v0_eq]
  have il : ∀ k : Fin 256, lidx_main_v14 (ix2 u j) k = ix2 u k := fun k =>
    funext fun a => Fin.ext (by match a with | ⟨0, _⟩ => rfl | ⟨1, _⟩ => rfl)
  have ir : ∀ k : Fin 256, ridx_main_v14 (ix2 u j) k = ix2 k j := fun k =>
    funext fun a => Fin.ext (by match a with | ⟨0, _⟩ => rfl | ⟨1, _⟩ => rfl)
  have ib : idx_main_v16 (idx_main_v17 (ix2 u j)) = ix1 j :=
    funext fun a => Fin.ext (by match a with | ⟨0, _⟩ => rfl)
  simp only [il, ir, ib]
  rfl

/-- The reference's result is the result function of its arguments. -/
theorem v19_eq (x0 : (⟨S100000x256, .f32⟩ : BufTy).Contents (Elt Ideal)) (x1 : (⟨S16384x256, .f32⟩ : BufTy).Contents (Elt Ideal))
    (x2 x3 : (⟨S1048576, .i32⟩ : BufTy).Contents (Elt Ideal)) (x4 : (⟨S1048576, .f32⟩ : BufTy).Contents (Elt Ideal))
    (x5 x6 : (⟨S256x256, .f32⟩ : BufTy).Contents (Elt Ideal)) (x7 : (⟨S256, .f32⟩ : BufTy).Contents (Elt Ideal)) :
    val_main_v19 (F := Ideal) x0 x1 x2 x3 x4 x5 x6 x7 = Cert.Agg.res x0 x1 x2 x3 x4 x5 x6 x7 := by
  funext i
  obtain ⟨u, j, rfl⟩ : ∃ (u : Fin 16384) (j : Fin 256), i = ix2 u j := ⟨i 0, i 1, eq_ix2 i⟩
  exact v19_apply x0 x1 x2 x3 x4 x5 x6 x7 u j

end Cert.ReferenceIdeal.RefValue

end
-- ==== Proof.lean ====
/-
  A graph layer: each user's message is the sum, over the edges into that user, of the edge's value times a row of a
  table of embeddings; the layer adds a dense transform of the user's own embedding and a bias, and cuts at zero.

  The reference transforms the whole embedding table by the first weight matrix and aggregates the transformed rows.
  The kernel aggregates the raw rows on the host and applies the weight matrix afterwards, inside one fused call
  that also forms the user product, adds the bias and takes the maximum with zero, one tile of 2048 users per grid
  point. On the extended reals the two agree because the aggregation is linear in the table's rows:

      ∑ k, (∑ e → u, val e · X (src e, k)) · Wp (k, j)  =  ∑ e → u, val e · (∑ k, X (src e, k) · Wp (k, j)),

  which is distributivity and an exchange of finite sums, valid when the entries of X, val and Wp are real numbers —
  what the precondition "every float input is finite" gives. The gather clamps an out-of-range source number and the
  scatter drops an out-of-range target number in the same way in both programs, so no condition on the integer
  arguments is needed; the user product, the bias and the cut at zero are the same terms on both sides.

  The pieces: the kernel's result array as the dense stage of the arrays its region finds (its eight tiles are the
  eight row blocks of one function), those arrays as the host chain of the arguments, the reference's result read one
  operation at a time, and the linearity that joins them.
-/
import proofs.«104869_j91345364451436_2_alg».proof.Defs
import proofs.«104869_j91345364451436_2_alg».proof.Proof.Gen.Kernel
import proofs.«104869_j91345364451436_2_alg».proof.Proof.Gen.Kernel.Skeleton
import proofs.«104869_j91345364451436_2_alg».proof.Proof.Gen.Kernel.Launch
import proofs.«104869_j91345364451436_2_alg».proof.Proof.Gen.Kernel.Points
import proofs.«104869_j91345364451436_2_alg».proof.Proof.Gen.Kernel.Frame
import proofs.«104869_j91345364451436_2_alg».proof.Proof.Gen.KernelIdeal
import proofs.«104869_j91345364451436_2_alg».proof.Proof.Gen.KernelIdeal.Skeleton
import proofs.«104869_j91345364451436_2_alg».proof.Proof.Gen.KernelIdeal.Launch
import proofs.«104869_j91345364451436_2_alg».proof.Proof.Gen.KernelIdeal.Points
import proofs.«104869_j91345364451436_2_alg».proof.Proof.Gen.KernelIdeal.Frame
import proofs.«104869_j91345364451436_2_alg».proof.Proof.Gen.ReferenceIdeal
import proofs.«104869_j91345364451436_2_alg».proof.Proof.Gen.Pre_finite_inputs
import proofs.«104869_j91345364451436_2_alg».proof.Proof.Gen.KernelIdeal.Value
import proofs.«104869_j91345364451436_2_alg».proof.Proof.Gen.ReferenceIdeal.Run
import proofs.«104869_j91345364451436_2_alg».proof.Proof.Gen.ReferenceIdeal.Read
import proofs.«104869_j91345364451436_2_alg».proof.Proof.Finite
import proofs.«104869_j91345364451436_2_alg».proof.Proof.KernelResult
import proofs.«104869_j91345364451436_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result function of the arguments. -/
theorem algebraic : Cert.algebraic_KernelIdeal_ReferenceIdeal := by
  intro m ρ m' ρ' hpre hagree
  refine ⟨fun c => Cert.Agg.res
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Whole.run m ρ)
    obtain ⟨hX, hval, hW⟩ := Cert.Finite.reals_of_pre _ _ _ _ _ _ _ _ (hpre c)
    exact Cert.KernelIdeal.Whole.G_eq_res m c hX hval hW
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.ReferenceIdeal.Read.val_main_v19_eq _ _ _ _ _ _ _ _).trans
      (Cert.ReferenceIdeal.RefValue.v19_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
